-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S64x512 : Shape := ⟨2, ![64, 512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_

variable [Facts]

def fn {F : FTy → Type} [FloatOps F] (main_arg0 : FVec F S65536x512 .f32) (main_arg1 : FVec F S64x512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  main_v8
-- ==== Kernel.lean ====
abbrev S65536x512 : Shape := ⟨2, ![65536, 512]⟩
abbrev S64x512 : Shape := ⟨2, ![64, 512]⟩
abbrev S65536x64 : Shape := ⟨2, ![65536, 64]⟩
abbrev S4096x512 : Shape := ⟨2, ![4096, 512]⟩
abbrev S4096x64 : Shape := ⟨2, ![4096, 64]⟩
abbrev S4096 : Shape := ⟨1, ![4096]⟩
abbrev S4096x1 : Shape := ⟨2, ![4096, 1]⟩
abbrev S64 : Shape := ⟨1, ![64]⟩
abbrev S1x64 : Shape := ⟨2, ![1, 64]⟩

abbrev nBuf : Space → Nat
  | .hbm => 3
  | .vmem => 5
  | .smem => 0
  | _ => 0

abbrev bufTy : (tb : Table) → Fin (tcTables nBuf tb) → BufTy
  | .hbm, ⟨0, _⟩ => ⟨S65536x512, .f32⟩
  | .hbm, ⟨1, _⟩ => ⟨S64x512, .f32⟩
  | .hbm, ⟨2, _⟩ => ⟨S65536x64, .f32⟩
  | .local _ .vmem, ⟨0, _⟩ => ⟨S4096x512, .f32⟩
  | .local _ .vmem, ⟨1, _⟩ => ⟨S4096x512, .f32⟩
  | .local _ .vmem, ⟨2, _⟩ => ⟨S64x512, .f32⟩
  | .local _ .vmem, ⟨3, _⟩ => ⟨S4096x64, .f32⟩
  | .local _ .vmem, ⟨4, _⟩ => ⟨S4096x64, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x512_S4096x512_0_0 : ∀ a, (![0, 0] : Fin 2 → Nat) a + S4096x512.size a ≤ S4096x512.size a
  h_S4096x512 : 0 < S4096x512.numel
  inb_S64x512_S64x512_0_0 : ∀ a, (![0, 0] : Fin 2 → Nat) a + S64x512.size a ≤ S64x512.size a
  h_S64x512 : 0 < S64x512.numel
  reduces_S4096x512_S4096 : S4096x512.Reduces [1] S4096
  shapeCasts_S4096_S4096x1 : S4096.ShapeCasts S4096x1
  reduces_S64x512_S64 : S64x512.Reduces [1] S64
  bitsLt_bf16_f32 : FTy.bits .bf16 < FTy.bits .f32
  shapeCasts_S64_S1x64 : S64.ShapeCasts S1x64
  broadcasts_S4096x1_S4096x64 : S4096x1.Broadcasts S4096x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  dot_S4096x512_S64x512_S4096x64_1_1_0_0_n_n_wf : DotDims.WF S4096x512 S64x512 S4096x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x512.size a ≤ S65536x512.size a
  hwx0_0 : ∀ i : grid0.Coords, EltTy.bits .f32 = 32 ∨ (Rect.block (s := S65536x512) S4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S65536x64.size a
  hwx0_2 : ∀ i : grid0.Coords, EltTy.bits .f32 = 32 ∨ (Rect.block (s := S65536x64) S4096x64.size (cc0_transform_2 i) (hinb0_2 i)).WholeWords (EltTy.packing .f32)

variable [Facts₀]

def dot_S4096x512_S64x512_S4096x64_1_1_0_0_n_n : DotDims S4096x512 S64x512 S4096x64 where
  lhsContracting := [1]
  rhsContracting := [1]
  lhsNonContracting := [0]
  rhsNonContracting := [0]
  lhsBatch := []
  rhsBatch := []
  wf := dot_S4096x512_S64x512_S4096x64_1_1_0_0_n_n_wf

abbrev win0_0 : Pipeline.Window sig grid0 :=
  Pipeline.Window.ofSpec (Memref.whole main_arg0) S4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4096x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x512 : Shape := ⟨2, ![65536, 512]⟩
abbrev S64x512 : Shape := ⟨2, ![64, 512]⟩
abbrev S65536x64 : Shape := ⟨2, ![65536, 64]⟩
abbrev S_ : Shape := ⟨0, ![]⟩
abbrev S65536 : Shape := ⟨1, ![65536]⟩
abbrev S64 : Shape := ⟨1, ![64]⟩
abbrev S65536x1 : Shape := ⟨2, ![65536, 1]⟩
abbrev S1x64 : Shape := ⟨2, ![1, 64]⟩

abbrev nBuf : Space → Nat
  | .hbm => 21
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S64x512, .f32⟩
  | .hbm, ⟨2, _⟩ => ⟨S65536x64, .f32⟩
  | .hbm, ⟨3, _⟩ => ⟨S65536x512, .f32⟩
  | .hbm, ⟨4, _⟩ => ⟨S_, .f32⟩
  | .hbm, ⟨5, _⟩ => ⟨S65536, .f32⟩
  | .hbm, ⟨6, _⟩ => ⟨S65536, .f32⟩
  | .hbm, ⟨7, _⟩ => ⟨S64x512, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S65536x1, .f32⟩
  | .hbm, ⟨12, _⟩ => ⟨S1x64, .f32⟩
  | .hbm, ⟨13, _⟩ => ⟨S65536x64, .f32⟩
  | .hbm, ⟨14, _⟩ => ⟨S65536x64, .f32⟩
  | .hbm, ⟨15, _⟩ => ⟨S65536x64, .f32⟩
  | .hbm, ⟨16, _⟩ => ⟨S_, .f32⟩
  | .hbm, ⟨17, _⟩ => ⟨S65536x64, .f32⟩
  | .hbm, ⟨18, _⟩ => ⟨S65536x64, .f32⟩
  | .hbm, ⟨19, _⟩ => ⟨S65536x64, .f32⟩
  | .hbm, ⟨20, _⟩ => ⟨S65536x64, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  reducesTo_S65536x512_S65536_d1 : S65536x512.ReducesTo [1] S65536
  h_S_ : 0 < S_.numel
  reducesTo_S64x512_S64_d1 : S64x512.ReducesTo [1] S64
  bcast_S65536_S65536x1_0 : S65536.BroadcastsInDim S65536x1 (![0] : Fin 1 → Fin S65536x1.rank)
  bcast_S64_S1x64_1 : S64.BroadcastsInDim S1x64 (![1] : Fin 1 → Fin S1x64.rank)
  bcast_S65536x1_S65536x64_0_1 : S65536x1.BroadcastsInDim S65536x64 (![0, 1] : Fin 2 → Fin S65536x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  dot_S65536x512_S64x512_S65536x64_1_1_0_0_n_n_wf : DotDims.WF S65536x512 S64x512 S65536x64 [1] [1] [0] [0] [] []

variable [Facts₀]

def dot_S65536x512_S64x512_S65536x64_1_1_0_0_n_n : DotDims S65536x512 S64x512 S65536x64 where
  lhsContracting := [1]
  rhsContracting := [1]
  lhsNonContracting := [0]
  rhsNonContracting := [0]
  lhsBatch := []
  rhsBatch := []
  wf := dot_S65536x512_S64x512_S65536x64_1_1_0_0_n_n_wf

class Facts : Prop extends Facts₀ where

variable [Facts]
-- ==== Proof.Cosine.lean ====
/-
  The negative cosine similarity of every row of a [65536, 512] array x against every row of a [64, 512] array of
  prototypes, on the extended reals, with the denominator kept away from zero by a floor eps (the binary value of the
  f32 word 0x322BCC77):

      table x pr (b, c) = -(sum_k x(b, k) * pr(c, k)) / max (sqrt (sum_k x(b, k)^2) * sqrt (sum_k pr(c, k)^2)) eps.

  An entry depends on ONE row of x and ONE row of pr only, so it is stated first for two rows (`entry`), and the table
  is `entry` of row b of x and row c of pr. No program is mentioned here.
-/
import Idealize.ShloMosaic.PureOps.Ideal
import Idealize.ShloMosaic.Lib.ValueIdx

noncomputable section

namespace Cert.NegCosine

open Idealize.ShloMosaic Idealize.ShloMosaic.ValueIdx
open scoped BigOperators

/-- The negative cosine similarity of two rows of 512 extended reals: minus their inner product, over the product
    of their Euclidean norms floored at eps. The quotient, the square root and the maximum are the extended reals'
    (a quotient by `0` or of infinities has the documented conventional value; nothing below depends on which). -/
def entry (u w : Fin 512 → EReal) : EReal :=
  Ideal.div (-(∑ k : Fin 512, u k * w k))
    (max (Ideal.sqrt (∑ k : Fin 512, u k * u k) * Ideal.sqrt (∑ k : Fin 512, w k * w k))
      (Ideal.ofBits .f32 0x322BCC77#32))

/-- The whole [65536, 64] table: entry (b, c) is `entry` of row b of x and row c of pr. -/
def table (x : (⟨2, ![65536, 512]⟩ : Shape).Idx → EReal) (pr : (⟨2, ![64, 512]⟩ : Shape).Idx → EReal) :
    (⟨2, ![65536, 64]⟩ : Shape).Idx → EReal :=
  fun i => entry (fun k => x (ix2 (i 0) k)) (fun k => pr (ix2 (i 1) k))

/-- The table at coordinates (b, c). -/
theorem table_apply (x : (⟨2, ![65536, 512]⟩ : Shape).Idx → EReal) (pr : (⟨2, ![64, 512]⟩ : Shape).Idx → EReal)
    (b : Fin 65536) (c : Fin 64) :
    table x pr (ix2 b c) = entry (fun k => x (ix2 b k)) (fun k => pr (ix2 c k)) := rfl

end Cert.NegCosine

end
-- ==== Proof.RefTable.lean ====
/-
  The reference computes the table of negative cosine similarities (Cosine.lean): read one operation at a time at an
  index (b, c), its last value is minus the contraction of row b of x with row c of the prototypes, divided by the
  maximum of eps and the product of the two rows' norms — each norm the square root of a sum of squares that starts
  from the zero word, which adds nothing.
  What is proved here besides that reading: where each layout operation of the reference sends an index given by
  coordinates (a row statistic [n] set as a column [n, 1] or a row [1, n] and spread over the table).
-/
import proofs.«125572_j80874234183813_1_alg».proof.Proof.Gen.ReferenceIdeal.Read
import proofs.«125572_j80874234183813_1_alg».proof.Proof.Cosine

noncomputable section

namespace Cert.NegCosine.Ref

open Cert.ReferenceIdeal Cert.ReferenceIdeal.Gen Cert.ReferenceIdeal.Read
open Idealize.ShloMosaic Idealize.ShloMosaic.ValueIdx
open scoped BigOperators

/-! ## Where the reference's operations read their operands, in coordinates -/

/-- The contraction at (b, c) reads x at (b, k) … -/
theorem lidx_eq (b : Fin 65536) (c : Fin 64) (k : Fin 512) : lidx_main_v0 (ix2 b c) k = ix2 b k :=
  funext fun a => Fin.ext (by match a with | ⟨0, _⟩ => rfl | ⟨1, _⟩ => rfl)

/-- … and the prototypes at (c, k). -/
theorem ridx_eq (b : Fin 65536) (c : Fin 64) (k : Fin 512) : ridx_main_v0 (ix2 b c) k = ix2 c k :=
  funext fun a => Fin.ext (by match a with | ⟨0, _⟩ => rfl | ⟨1, _⟩ => rfl)

/-- The norms of x spread over the table: entry (b, c) reads the column [65536, 1] at (b, 0), -/
theorem idx5_eq (b : Fin 65536) (c : Fin 64) : idx_main_v5 (ix2 b c) = ix2 b (0 : Fin 1) :=
  funext fun a => Fin.ext (by match a with | ⟨0, _⟩ => rfl | ⟨1, _⟩ => rfl)

/-- the column at (b, u) reads the vector of norms at b, -/
theorem idx3_eq (b : Fin 65536) (u : Fin 1) : idx_main_v3 (ix2 b u) = ix1 b :=
  funext fun a => Fin.ext (by match a with | ⟨0, _⟩ => rfl)

/-- and the sum of squares at b runs over x at (b, k). -/
theorem idxx_eq (b : Fin 65536) (k : Fin 512) : idx_main_call0_v1 (ix1 b) k = ix2 b k :=
  funext fun a => Fin.ext (by match a with | ⟨0, _⟩ => rfl | ⟨1, _⟩ => rfl)

/-- The norms of the prototypes spread over the table: entry (b, c) reads the row [1, 64] at (0, c), -/
theorem idx6_eq (b : Fin 65536) (c : Fin 64) : idx_main_v6 (ix2 b c) = ix2 (0 : Fin 1) c :=
  funext fun a => Fin.ext (by match a with | ⟨0, _⟩ => rfl | ⟨1, _⟩ => rfl)

/-- the row at (u, c) reads the vector of norms at c, -/
theorem idx4_eq (u : Fin 1) (c : Fin 64) : idx_main_v4 (ix2 u c) = ix1 c :=
  funext fun a => Fin.ext (by match a with | ⟨0, _⟩ => rfl)

/-- and the sum of squares at c runs over the prototypes at (c, k). -/
theorem idxp_eq (c : Fin 64) (k : Fin 512) : idx_main_call1_v1 (ix1 c) k = ix2 c k :=
  funext fun a => Fin.ext (by match a with | ⟨0, _⟩ => rfl | ⟨1, _⟩ => rfl)

/-! ## The reference's result is the table -/

/-- The reference's last value, as a function of its two arguments, is `table`: index by index the same quotient.
    No law of extended-real arithmetic is used beyond `0 + s = s` for the two sums of squares. -/
theorem reference_eq (x : (⟨S65536x512, .f32⟩ : BufTy).Contents (Elt Ideal)) (pr : (⟨S64x512, .f32⟩ : BufTy).Contents (Elt Ideal)) :
    val_main_v11 (F := Ideal) x pr = table x pr := by
  funext i
  obtain ⟨b, c, rfl⟩ : ∃ (b : Fin 65536) (c : Fin 64), i = ix2 b c := ⟨i 0, i 1, eq_ix2 i⟩
  rw [val_main_v11_apply, val_main_v10_apply, val_main_v0_apply, val_main_v9_apply, val_main_v7_apply,
    val_main_v5_apply, val_main_v3_apply, val_main_v1_apply, val_main_call0_v1_apply,
    val_main_v6_apply, val_main_v4_apply, val_main_v2_apply, val_main_call1_v1_apply,
    val_main_v8_apply, val_main_cst_apply, val_main_call0_cst_apply, val_main_call1_cst_apply, table_apply]
  simp only [val_main_call0_v0_apply, val_main_call1_v0_apply, lidx_eq, ridx_eq, idx5_eq, idx3_eq, idxx_eq, idx6_eq,
    idx4_eq, idxp_eq, Ideal.hostDivf_def, Ideal.hostNegf_def, Ideal.negf_def, Ideal.maximumf_def, Ideal.mulf_def,
    Ideal.hostUnary_sqrt_def, Ideal.ofBits_def, Ideal.ofBits_zero_f32, zero_add]
  rfl

end Cert.NegCosine.Ref

end
-- ==== Proof.LibLanes.lean ====
/-
  GENERAL LEMMAS: a contraction of the lanes of two matrices — (A * B^T)(p, q) = sum over k of A(p, k) * B(q, k) — read at
  an index on extended reals, in the two spellings a kernel and a host program give it. Nothing here mentions a program;
  the extents R (rows of A), N (rows of B) and K (the contracted lanes) are arbitrary.

  * idx2_ext: two rank-2 indices with the same coordinates are one index.
  * contraction_lanes: a contraction of axis 1 of an [R, K] array with axis 1 of an [N, K] array (no batch axes), read
    at (p, q), is the sum over k : Fin K of l (p, k) * r (q, k); the dimension record enters only through four coordinate
    facts about its operand indices (for a printed record: two by unfolding, two by DotDims.lhsIdx_val_of_single /
    rhsIdx_val_of_single) and the rank and extent of its contraction shape (both rfl).
  * matmul_lanes: the kernel's spelling — the matrix unit's product into a zero accumulator — at (p, q).
  * hostdot_lanes: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibLanes

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the lanes of an [N, K] array, read at (p, q): the sum over
    k of l(p, k) * r(q, k). The dimension record enters through four coordinate facts and the extent of its one
    contracted axis. -/
theorem contraction_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    (l : (⟨2, ![R, K]⟩ : Shape).Idx → EReal) (r : (⟨2, ![N, K]⟩ : Shape).Idx → EReal) (p : Fin R) (q : Fin N) :
    ∑ s : d.contr.Idx, l (d.lhsIdx (ix2 p q) s) * r (d.rhsIdx (ix2 p q) s) = ∑ k : Fin K, l (ix2 p k) * r (ix2 q k) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 q k :=
    idx2_ext _ _ (hr0 _ _) ((hr1 _ _).trans hk)
  rw [el, er]

/-- The matrix unit's product into a zero accumulator, read at (p, q). -/
theorem matmul_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    {φ₁ φ₂ : FTy} (l : FVec Ideal ⟨2, ![R, K]⟩ φ₁) (r : FVec Ideal ⟨2, ![N, K]⟩ φ₂) (p : Fin R) (q : Fin N) :
    matmul d none l r (constant (F := Ideal) ⟨2, ![R, N]⟩ .f32 0x00000000#32) (ix2 p q)
      = ∑ k : Fin K, l (ix2 p k) * r (ix2 q k) :=
  (Ideal.matmul_constant_zero_apply d none l r (ix2 p q)).trans
    (contraction_lanes d hrank hsize hl0 hl1 hr0 hr1 l r p q)

/-- The host's dot_general, read at (p, q). -/
theorem hostdot_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    (l : FVec Ideal ⟨2, ![R, K]⟩ .f32) (r : FVec Ideal ⟨2, ![N, K]⟩ .f32) (p : Fin R) (q : Fin N) :
    Host.dotGeneral d none l r (ix2 p q) = ∑ k : Fin K, l (ix2 p k) * r (ix2 q k) :=
  (Ideal.dotGeneral_apply d none .single l r (ix2 p q)).trans
    (contraction_lanes d hrank hsize hl0 hl1 hr0 hr1 l r p q)

end Cert.LibLanes

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.Payload.lean ====
/-
  What the kernel's body stores, read at one entry. The body loads a block of 4096 rows of x and the whole [64, 512]
  array of prototypes and stores, at row a and column c of its [4096, 64] output block,

      (0 - sum_k x(a, k) * pr(c, k)) / max (sqrt (sum_k x(a, k)^2) * sqrt (sum_k pr(c, k)^2)) eps,

  which is `entry` (Cosine.lean) of row a of the x block and row c of the prototypes, since 0 - s = -s on the
  extended reals. The three non-pointwise pieces are read first: the matrix product (the rounding of its operands to
  a narrower format is the identity on extended reals), and the two vectors of row norms, one set as a column and
  spread over the 64 columns, the other set as a row and spread over the 4096 rows.
-/
import proofs.«125572_j80874234183813_1_alg».proof.Proof.Gen.KernelIdeal.Skeleton
import proofs.«125572_j80874234183813_1_alg».proof.Proof.Cosine
import proofs.«125572_j80874234183813_1_alg».proof.Proof.LibLanes
import proofs.«125572_j80874234183813_1_alg».proof.Proof.LibLayout
import Idealize.ShloMosaic.Lib.ValueLayout
import Idealize.ShloMosaic.PureOps.Ideal.Laws

noncomputable section

namespace Cert.NegCosine.Body

open Cert.KernelIdeal Cert.KernelIdeal.Gen
open Idealize.ShloMosaic Idealize.ShloMosaic.ValueIdx
open scoped BigOperators

/-! ## The contraction -/

/-- The matrix product of the x block with the prototypes, both contracted along their 512 lanes, into a zero
    accumulator: at (a, c) the inner product of row a with row c. -/
theorem dots_apply (v0 : FVec Ideal S4096x512 .f32) (v1 : FVec Ideal S64x512 .f32) (a : Fin 4096) (c : Fin 64) :
    matmul dot_S4096x512_S64x512_S4096x64_1_1_0_0_n_n none (truncf .bf16 v0 bitsLt_bf16_f32) (truncf .bf16 v1 bitsLt_bf16_f32)
        (constant (F := Ideal) S4096x64 .f32 0x00000000#32) (ix2 a c)
      = ∑ k : Fin 512, v0 (ix2 a k) * v1 (ix2 c k) :=
  Cert.LibLanes.matmul_lanes dot_S4096x512_S64x512_S4096x64_1_1_0_0_n_n rfl rfl
    (fun i s => by
      unfold DotDims.lhsIdx
      rw [dif_neg (show ¬(0 : Fin S4096x512.rank) ∈ dot_S4096x512_S64x512_S4096x64_1_1_0_0_n_n.lhsBatch by decide),
        dif_pos (show (0 : Fin S4096x512.rank) ∈ dot_S4096x512_S64x512_S4096x64_1_1_0_0_n_n.lhsNonContracting by decide)]
      rfl)
    (fun i s => dot_S4096x512_S64x512_S4096x64_1_1_0_0_n_n.lhsIdx_val_of_single rfl i s)
    (fun i s => by
      unfold DotDims.rhsIdx
      rw [dif_neg (show ¬(0 : Fin S64x512.rank) ∈ dot_S4096x512_S64x512_S4096x64_1_1_0_0_n_n.rhsBatch by decide),
        dif_pos (show (0 : Fin S64x512.rank) ∈ dot_S4096x512_S64x512_S4096x64_1_1_0_0_n_n.rhsNonContracting by decide)]
      rfl)
    (fun i s => dot_S4096x512_S64x512_S4096x64_1_1_0_0_n_n.rhsIdx_val_of_single rfl i s)
    (truncf .bf16 v0 bitsLt_bf16_f32) (truncf .bf16 v1 bitsLt_bf16_f32) a c

/-! ## The two vectors of norms, spread over the block -/

/-- The norms of the rows of the x block, set as a column and spread over the 64 columns: at (a, c) the norm of row a. -/
theorem xnorm_apply (v0 : FVec Ideal S4096x512 .f32) (a : Fin 4096) (c : Fin 64) :
    broadcastTo S4096x64
        (sqrt (shapeCast S4096x1 (multiReduction .add [1] S4096 (mulf v0 v0) 0x00000000#32 reduces_S4096x512_S4096 (.inl rfl) rfl)
          shapeCasts_S4096_S4096x1))
        broadcasts_S4096x1_S4096x64 (ix2 a c)
      = Ideal.sqrt (∑ k : Fin 512, v0 (ix2 a k) * v0 (ix2 a k)) :=
  (Cert.LibLayout.broadcastTo_a1_ab_apply _ broadcasts_S4096x1_S4096x64 a c).trans
    (congrArg Ideal.sqrt
      ((Cert.LibLayout.shapeCast_a_a1_apply _ shapeCasts_S4096_S4096x1 a (0 : Fin 1)).trans
        (Cert.LibLayout.laneSum_apply (mulf v0 v0) reduces_S4096x512_S4096 (.inl rfl) rfl a)))

/-- The norms of the rows of the prototypes, set as a row and spread over the 4096 rows: at (a, c) the norm of row c. -/
theorem pnorm_apply (v1 : FVec Ideal S64x512 .f32) (a : Fin 4096) (c : Fin 64) :
    broadcastTo S4096x64
        (shapeCast S1x64 (sqrt (multiReduction .add [1] S64 (mulf v1 v1) 0x00000000#32 reduces_S64x512_S64 (.inl rfl) rfl))
          shapeCasts_S64_S1x64)
        broadcasts_S1x64_S4096x64 (ix2 a c)
      = Ideal.sqrt (∑ k : Fin 512, v1 (ix2 c k) * v1 (ix2 c k)) :=
  (broadcastTo_1b_ab_apply _ broadcasts_S1x64_S4096x64 a c).trans
    ((shapeCast_a_1a_apply _ shapeCasts_S64_S1x64 (0 : Fin 1) c).trans
      (congrArg Ideal.sqrt (Cert.LibLayout.laneSum_apply (mulf v1 v1) reduces_S64x512_S64 (.inl rfl) rfl c)))

/-! ## The stored value at an entry -/

/-- The body's stored value at row a, column c of its block is `entry` of row a of the x block and row c of the
    prototypes: the quotient is the same, and its numerator 0 - s is -s. -/
theorem pay_apply (v0 : Vec Ideal S4096x512 .f32) (v1 : Vec Ideal S64x512 .f32) (a : Fin 4096) (c : Fin 64) :
    k0_pay1 (F := Ideal) v0 v1 (ix2 a c) = entry (fun k => v0 (ix2 a k)) (fun k => v1 (ix2 c k)) := by
  unfold k0_pay1 entry
  refine congrArg₂ Ideal.div ?_ (congrArg₂ max (congrArg₂ (· * ·) (xnorm_apply v0 a c) (pnorm_apply v1 a c)) rfl)
  refine (congrArg (fun s => Ideal.ofBits .f32 0x00000000#32 - s) (dots_apply v0 v1 a c)).trans ?_
  rw [Ideal.ofBits_zero_f32, zero_sub]

end Cert.NegCosine.Body

end
-- ==== Proof.Blocks.lean ====
/-
  From blocks to the whole array. The grid has 16 points; point t loads rows 4096 t … 4096 t + 4095 of x and the whole
  array of prototypes, and writes back rows 4096 t … 4096 t + 4095 of the [65536, 64] result. Since an entry of the
  table of negative cosine similarities (Cosine.lean) depends only on its own row of x and its own row of the
  prototypes, what point t writes back is block t of the table of the WHOLE arguments (`flushed_eq`); the 16 blocks of
  4096 rows cover all 65536 rows (`covered`: row r lies in block r / 4096); so the result array ends holding the
  table (`final`), and the run is re-posted with that array named (`run`).
-/
import proofs.«125572_j80874234183813_1_alg».proof.Proof.Gen.KernelIdeal.Value
import proofs.«125572_j80874234183813_1_alg».proof.Proof.Payload
import Idealize.ShloMosaic.Lib.Pipeline.Value

noncomputable section

namespace Cert.NegCosine.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.NegCosine Cert.NegCosine.Body

variable (m : (ℓ : Loc nD τ sig) → Buf (Elt Ideal) ℓ) (ρ : Dev nD → PrngReg)

/-- The body's three accesses start at the origin of their blocks. -/
theorem origin : (![0, 0] : Fin 2 → Nat) = fun _ => 0 := funext fun a => by fin_cases a <;> rfl

/-- The three index maps over the 16 grid points: the x window moves down its rows with the output window, both stay
    in lane block 0, the prototypes' window stays at block (0, 0), and the output's row block is at most 15. -/
theorem block_indices : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 15 :=
  (by decide +kernel : ∀ t : Fin grid0.N, _)

/-- Each of the 16 row blocks of the result is some grid point's. -/
theorem block_onto : ∀ q : Fin 16, ∃ t : Fin cfg0.N, win0_2.index t = ![q.val, 0] :=
  (by decide +kernel : ∀ q : Fin 16, ∃ t : Fin grid0.N, win0_2.index t = ![q.val, 0])

/-- One stored entry against one entry of the table: if row `y 0` of the loaded x block is row `i 0` of X and row
    `y 1` of the loaded prototypes is row `i 1` of P, the body's stored value at y is the table of X and P at i. -/
theorem block_entry (X : S65536x512.Idx → EReal) (P : S64x512.Idx → EReal)
    (v0 : Vec Ideal S4096x512 .f32) (v1 : Vec Ideal S64x512 .f32) (y : S4096x64.Idx) (i : S65536x64.Idx)
    (h0 : ∀ k : Fin 512, v0 (ix2 (y 0) k) = X (ix2 (i 0) k))
    (h1 : ∀ k : Fin 512, v1 (ix2 (y 1) k) = P (ix2 (i 1) k)) :
    k0_pay1 (F := Ideal) v0 v1 y = table X P i :=
  (congrArg (k0_pay1 (F := Ideal) v0 v1) (eq_ix2 y)).trans
    ((pay_apply v0 v1 (y 0) (y 1)).trans (congrArg₂ entry (funext h0) (funext h1)))

/-- WHAT POINT t WRITES BACK is block t of the table of the argument arrays as the region finds them. -/
theorem flushed_eq (c : Dev nD) (t : Fin cfg0.N) :
    (dats m 0 c).flushed 2 t
      = ((cfg0.win 2).blk t).view.read (Elt Ideal) (table (V m c main_arg0) (V m c main_arg1)) := by
  rw [flushed2]
  unfold out0_2
  rw [View.canon_unit_zero origin]
  simp only [View.ld_unit_zero (S := S4096x512) origin, View.ld_unit_zero (S := S64x512) origin]
  obtain ⟨e0, e1, e2, e3, e4, e5⟩ := block_indices t
  funext j
  show k0_pay1 (F := Ideal) (iblk m c 0 t) (iblk m c 1 t) j
    = table (V m c main_arg0) (V m c main_arg1) (((cfg0.win 2).blk t).view.emb j)
  refine block_entry (V m c main_arg0) (V m c main_arg1) (iblk m c 0 t) (iblk m c 1 t) j
    (((cfg0.win 2).blk t).view.emb j) (fun k => ?_) (fun k => ?_)
  · show V m c main_arg0 (((cfg0.win 0).blk t).view.emb (ix2 (j 0) k))
      = V m c main_arg0 (ix2 ((((cfg0.win 2).blk t).view.emb j) 0) k)
    refine congrArg (V m c main_arg0) (funext fun a => Fin.ext ?_)
    match a with
    | ⟨0, _⟩ =>
      show win0_0.index t (0 : Fin 2) * 4096 + 1 * (j 0).val = win0_2.index t (0 : Fin 2) * 4096 + 1 * (j 0).val
      rw [e0]
    | ⟨1, _⟩ =>
      show win0_0.index t (1 : Fin 2) * 512 + 1 * k.val = k.val
      rw [e1]; omega
  · show V m c main_arg1 (((cfg0.win 1).blk t).view.emb (ix2 (j 1) k))
      = V m c main_arg1 (ix2 ((((cfg0.win 2).blk t).view.emb j) 1) k)
    refine congrArg (V m c main_arg1) (funext fun a => Fin.ext ?_)
    match a with
    | ⟨0, _⟩ =>
      show win0_1.index t (0 : Fin 2) * 64 + 1 * (j 1).val = win0_2.index t (1 : Fin 2) * 64 + 1 * (j 1).val
      rw [e2, e4]
    | ⟨1, _⟩ =>
      show win0_1.index t (1 : Fin 2) * 512 + 1 * k.val = k.val
      rw [e3]; omega

/-- An index of the result is in point t's block iff each coordinate is in the block's range on its axis. -/
theorem mem_block (t : Fin cfg0.N) (i : S65536x64.Idx) :
    i ∈ ((cfg0.win 2).blk t).view.set ↔ ∀ a : Fin 2, win0_2.index t a * S4096x64.size a ≤ (i a).val
      ∧ (i a).val < win0_2.index t a * S4096x64.size a + S4096x64.size a := by
  show i ∈ ((View.whole main_v0).slice (win0_2.rect t)).set ↔ _
  rw [View.set_slice_whole, Rect.mem_set_unit]
  exact Iff.rfl

/-- THE COVER: row r of the result lies in the block of the point whose row block is r / 4096. -/
theorem covered (i : S65536x64.Idx) :
    ∃ t : Fin cfg0.N, (cfg0.win 2).flush t = true ∧ i ∈ ((cfg0.win 2).blk t).view.set := by
  have hi0 : (i 0).val < 65536 := (i 0).isLt
  have hi1 : (i 1).val < 64 := (i 1).isLt
  obtain ⟨t, ht⟩ := block_onto ⟨(i 0).val / 4096, by omega⟩
  have q0 : win0_2.index t (0 : Fin 2) = (i 0).val / 4096 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 64 ≤ (i 1).val ∧ (i 1).val < win0_2.index t (1 : Fin 2) * 64 + 64
    omega

/-- THE ARRAY after the run is the table of the two argument arrays. -/
theorem final (c : Dev nD) :
    (dats m 0 c).arrAt 2 cfg0.N
      = table (m ((c : Thread nD τ).loc main_arg0)) (m ((c : Thread nD τ).loc main_arg1)) :=
  (dats m 0 c).arrAt_eq_of_cover 2 (table (V m c main_arg0) (V m c main_arg1)) (fun t _ => flushed_eq m c t) covered

/-- The run with the result array named: it ends at the table of the arguments, which end unchanged. -/
theorem run : θ_run defs (onTc (τ := τ) (main (F := Ideal))) ⟨m, fun _ => 0, ρ⟩ fun r => ∀ c : Dev nD,
      r.2.mem ((c : Thread nD τ).loc main_v0)
        = table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.NegCosine.Blocks

end
-- ==== Proof.lean ====
/- The proof of `Cert.Claim`: a Pallas kernel that tabulates the negative cosine similarity of every row of
   x : f32[65536, 512] against every row of prototypes : f32[64, 512] — 16 grid points, each a matrix product of
   4096 rows of x with the prototypes, divided by the floored product of the rows' norms — against the same table
   computed on the host with an einsum and two `linalg.norm`s.

   On the extended reals both programs compute ONE function, `Cert.NegCosine.table` (Proof/Cosine.lean):
     * the reference's value, read one operation at a time at an index, is the table (Proof/RefTable.lean);
     * the kernel's stored value at an entry of a block is the table's entry for the block's row of x and the
       prototypes' row (Proof/Payload.lean, over two files of general lemmas on contractions of lanes and on row and
       column layouts, Proof/LibLanes.lean and Proof/LibLayout.lean), and the 16 blocks of 4096 rows tile the result
       (Proof/Blocks.lean).
   The only arithmetic law used is 0 - s = -s (the kernel negates by subtracting from zero, the host negates) and
   0 + s = s (the host's sums start from a zero word); the order of a finite sum is immaterial. None of it needs the
   inputs finite, so the precondition is never opened. The kernel rounds its matrix-product operands to a narrower
   format; on the extended reals that is the identity, and the idealization rewrote nothing, so `preserves` is `True`.
   The three frames are the two generated frame theorems and the reference's generated run with its result dropped. -/
import proofs.«125572_j80874234183813_1_alg».proof.Defs
import proofs.«125572_j80874234183813_1_alg».proof.Proof.Gen.Kernel
import proofs.«125572_j80874234183813_1_alg».proof.Proof.Gen.Kernel.Skeleton
import proofs.«125572_j80874234183813_1_alg».proof.Proof.Gen.Kernel.Launch
import proofs.«125572_j80874234183813_1_alg».proof.Proof.Gen.Kernel.Points
import proofs.«125572_j80874234183813_1_alg».proof.Proof.Gen.Kernel.Frame
import proofs.«125572_j80874234183813_1_alg».proof.Proof.Gen.KernelIdeal
import proofs.«125572_j80874234183813_1_alg».proof.Proof.Gen.KernelIdeal.Skeleton
import proofs.«125572_j80874234183813_1_alg».proof.Proof.Gen.KernelIdeal.Launch
import proofs.«125572_j80874234183813_1_alg».proof.Proof.Gen.KernelIdeal.Points
import proofs.«125572_j80874234183813_1_alg».proof.Proof.Gen.KernelIdeal.Frame
import proofs.«125572_j80874234183813_1_alg».proof.Proof.Gen.ReferenceIdeal
import proofs.«125572_j80874234183813_1_alg».proof.Proof.Gen.Pre_finite_inputs
import proofs.«125572_j80874234183813_1_alg».proof.Proof.Gen.KernelIdeal.Value
import proofs.«125572_j80874234183813_1_alg».proof.Proof.Gen.ReferenceIdeal.Run
import proofs.«125572_j80874234183813_1_alg».proof.Proof.Gen.ReferenceIdeal.Read
import proofs.«125572_j80874234183813_1_alg».proof.Proof.RefTable
import proofs.«125572_j80874234183813_1_alg».proof.Proof.Blocks
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on x and the prototypes, the kernel's result array ends at the table of negative cosine
    similarities of its arguments, and the reference's last value is the table of its arguments: the same array. -/
theorem algebraic : Cert.algebraic_KernelIdeal_ReferenceIdeal := by
  intro m ρ m' ρ' _ hagree
  refine ⟨_, Cert.NegCosine.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.NegCosine.Ref.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
